-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S40000x128 .f32) (main_arg1 : IVec S640000 32) (main_arg2 : IVec S640000 32) (main_arg3 : FVec F S128x128 .f32) (main_arg4 : FVec F S128x128 .f32) (main_arg5 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S40000x128 : Shape := ⟨2, ![40000, 128]⟩
abbrev S640000 : Shape := ⟨1, ![640000]⟩
abbrev S128x128 : Shape := ⟨2, ![128, 128]⟩
abbrev S4000x128 : Shape := ⟨2, ![4000, 128]⟩
abbrev S_ : Shape := ⟨0, ![]⟩
abbrev S640000x1 : Shape := ⟨2, ![640000, 1]⟩
abbrev S640000x128 : Shape := ⟨2, ![640000, 128]⟩
abbrev S40000x8x16 : Shape := ⟨3, ![40000, 8, 16]⟩

abbrev nBuf : Space → Nat
  | .hbm => 51
  | .vmem => 21
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S40000x128, .f32⟩
  | .hbm, ⟨7, _⟩ => ⟨S40000x128, .f32⟩
  | .hbm, ⟨8, _⟩ => ⟨S40000x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S40000x128, .f32⟩
  | .hbm, ⟨40, _⟩ => ⟨S640000x1, .i32⟩
  | .hbm, ⟨41, _⟩ => ⟨S40000x128, .f32⟩
  | .hbm, ⟨42, _⟩ => ⟨S_, .f32⟩
  | .hbm, ⟨43, _⟩ => ⟨S40000x128, .f32⟩
  | .hbm, ⟨44, _⟩ => ⟨S640000x1, .i32⟩
  | .hbm, ⟨45, _⟩ => ⟨S40000x128, .f32⟩
  | .hbm, ⟨46, _⟩ => ⟨S_, .f32⟩
  | .hbm, ⟨47, _⟩ => ⟨S40000x128, .f32⟩
  | .hbm, ⟨48, _⟩ => ⟨S40000x128, .f32⟩
  | .hbm, ⟨49, _⟩ => ⟨S40000x128, .f32⟩
  | .hbm, ⟨50, _⟩ => ⟨S40000x8x16, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  shapeCasts_S4000x128_S4000x128 : S4000x128.ShapeCasts S4000x128
  bcast_S_S40000x128 : S_.BroadcastsInDim S40000x128 (![] : Fin 0 → Fin S40000x128.rank)
  shapeCasts_S40000x128_S40000x8x16 : S40000x128.ShapeCasts S40000x8x16
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .f32 = 32 ∨ (Rect.block (s := S40000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .f32 = 32 ∨ (Rect.block (s := S640000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .f32 = 32 ∨ (Rect.block (s := S640000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S640000x128.size a
  hwx1_4 : ∀ i : grid1.Coords, EltTy.bits .f32 = 32 ∨ (Rect.block (s := S640000x128) S4000x128.size (cc1_transform_4 i) (hinb1_4 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22_0) S4000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22_1) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S40000x8x16 : Shape := ⟨3, ![40000, 8, 16]⟩
abbrev S_ : Shape := ⟨0, ![]⟩
abbrev S640000x1 : Shape := ⟨2, ![640000, 1]⟩
abbrev S640000x8x16 : Shape := ⟨3, ![640000, 8, 16]⟩

abbrev nBuf : Space → Nat
  | .hbm => 59
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S40000x128, .f32⟩
  | .hbm, ⟨7, _⟩ => ⟨S40000x8x16, .f32⟩
  | .hbm, ⟨8, _⟩ => ⟨S40000x128, .f32⟩
  | .hbm, ⟨9, _⟩ => ⟨S40000x8x16, .f32⟩
  | .hbm, ⟨10, _⟩ => ⟨S40000x128, .f32⟩
  | .hbm, ⟨11, _⟩ => ⟨S40000x8x16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x8x16, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x8x16, .f32⟩
  | .hbm, ⟨34, _⟩ => ⟨S640000x8x16, .f32⟩
  | .hbm, ⟨35, _⟩ => ⟨S640000x8x16, .f32⟩
  | .hbm, ⟨36, _⟩ => ⟨S640000x8x16, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x8x16, .f32⟩
  | .hbm, ⟨46, _⟩ => ⟨S640000x8x16, .f32⟩
  | .hbm, ⟨47, _⟩ => ⟨S_, .f32⟩
  | .hbm, ⟨48, _⟩ => ⟨S40000x8x16, .f32⟩
  | .hbm, ⟨49, _⟩ => ⟨S640000x1, .i32⟩
  | .hbm, ⟨50, _⟩ => ⟨S40000x8x16, .f32⟩
  | .hbm, ⟨51, _⟩ => ⟨S_, .f32⟩
  | .hbm, ⟨52, _⟩ => ⟨S40000x8x16, .f32⟩
  | .hbm, ⟨53, _⟩ => ⟨S640000x1, .i32⟩
  | .hbm, ⟨54, _⟩ => ⟨S40000x8x16, .f32⟩
  | .hbm, ⟨55, _⟩ => ⟨S_, .f32⟩
  | .hbm, ⟨56, _⟩ => ⟨S40000x8x16, .f32⟩
  | .hbm, ⟨57, _⟩ => ⟨S40000x8x16, .f32⟩
  | .hbm, ⟨58, _⟩ => ⟨S40000x8x16, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  shapeCasts_S40000x128_S40000x8x16 : S40000x128.ShapeCasts S40000x8x16
  bcast_S_S640000 : S_.BroadcastsInDim S640000 (![] : Fin 0 → Fin S640000.rank)
  bcast_S640000_S640000x1_0 : S640000.BroadcastsInDim S640000x1 (![0] : Fin 1 → Fin S640000x1.rank)
  bcast_S_S640000x8x16 : S_.BroadcastsInDim S640000x8x16 (![] : Fin 0 → Fin S640000x8x16.rank)
  bcast_S_S40000x8x16 : S_.BroadcastsInDim S40000x8x16 (![] : Fin 0 → Fin S40000x8x16.rank)
  dot_S40000x128_S128x128_S40000x128_1_0_0_1_n_n_wf : DotDims.WF S40000x128 S128x128 S40000x128 [1] [0] [0] [1] [] []
  gather_S40000x8x16_S640000x1_S640000x8x16_12_0_n_n_0_1_1816_wf : GatherDims.WF S40000x8x16 S640000x1 S640000x8x16 [1, 2] [0] [] [0] [] 1 ![1, 8, 16]
  scatter_S40000x8x16_S640000x1_S640000x8x16_12_0_0_1_wf : ScatterDims.WF S40000x8x16 S640000x1 S640000x8x16 [1, 2] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x8x16_S640000x1_S640000x8x16_12_0_n_n_0_1_1816 : GatherDims S40000x8x16 S640000x1 S640000x8x16 where
  offsetDims := [1, 2]
  collapsedSliceDims := [0]
  operandBatchingDims := []
  startIndicesBatchingDims := []
  startIndexMap := [0]
  indexVectorDim := 1
  sliceSizes := ![1, 8, 16]
  wf := gather_S40000x8x16_S640000x1_S640000x8x16_12_0_n_n_0_1_1816_wf
def scatter_S40000x8x16_S640000x1_S640000x8x16_12_0_0_1 : ScatterDims S40000x8x16 S640000x1 S640000x8x16 where
  updateWindowDims := [1, 2]
  insertedWindowDims := [0]
  scatterDimsToOperandDims := [0]
  indexVectorDim := 1
  wf := scatter_S40000x8x16_S640000x1_S640000x8x16_12_0_0_1_wf

class Facts : Prop extends Facts₀ where

variable [Facts]
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibScatterSet.lean ====
/-
  A scatter whose body returns the update ("set"), read at one index.

  The scatter is a left fold over the update indices: each update whose target lies inside the operand replaces
  the element there, the others are dropped.  Suppose every update that lands on the index `i` carries one and the
  same value `v` (all updates equal, or an update that depends only on coordinates it shares with its target).
  Then the order of the fold does not matter: the result at `i` is `v` if some update lands on `i`, and the
  operand's element otherwise.
-/
import Idealize.ShloMosaic.PureOps

namespace Idealize.ShloMosaic.ScatterSet

open Idealize.ShloMosaic

/-- A left fold of steps, watched at one position `b`: each step either overwrites position `b` with the fixed
    value `v` (when the step "hits") or leaves it alone.  After the fold, position `b` holds `v` if some step of
    the list hit, and its initial value otherwise. -/
theorem foldl_overwrite {ι β γ : Type} (stp : (β → γ) → ι → (β → γ)) (b : β) (hit : ι → Prop) (v : γ)
    (hhit : ∀ r n, hit n → stp r n b = v) (hmiss : ∀ r n, ¬ hit n → stp r n b = r b)
    (L : List ι) (x : β → γ) :
    ((∃ n ∈ L, hit n) → L.foldl stp x b = v) ∧ ((∀ n ∈ L, ¬ hit n) → L.foldl stp x b = x b) := by
  induction L generalizing x with
  | nil => exact ⟨fun ⟨_, h, _⟩ => absurd h (List.not_mem_nil), fun _ => rfl⟩
  | cons n L ih =>
    rw [List.foldl_cons]
    refine ⟨?_, ?_⟩
    · rintro ⟨n', hn', hh⟩
      by_cases hL : ∃ n'' ∈ L, hit n''
      · exact (ih (stp x n)).1 hL
      · have hnone : ∀ n'' ∈ L, ¬ hit n'' := fun n'' h1 h2 => hL ⟨n'', h1, h2⟩
        rw [(ih (stp x n)).2 hnone]
        rcases List.mem_cons.1 hn' with rfl | hn'
        · exact hhit x n' hh
        · exact absurd hh (hnone n' hn')
    · intro hall
      rw [(ih (stp x n)).2 fun n' h => hall n' (List.mem_cons_of_mem _ h)]
      exact hmiss x n (hall n (List.mem_cons_self))

variable {α : Type} {s si u : Shape} {w : Nat}

/-- The scatter's fold, watched at the index `i`: the step for update `n` hits when that update lands on `i`. -/
theorem scatter_set_fold (d : ScatterDims s si u) (x : s.Idx → α) (idx : IVec si w) (upd : u.Idx → α) (i : s.Idx) (v : α)
    (hv : ∀ j, d.resultIdx? j idx = some i → upd j = v) :
    ((∃ j, d.resultIdx? j idx = some i) → Host.scatter d (fun _ b => b) x idx upd i = v)
    ∧ ((∀ j, d.resultIdx? j idx ≠ some i) → Host.scatter d (fun _ b => b) x idx upd i = x i) := by
  unfold Host.scatter
  have key := foldl_overwrite (fun (r : s.Idx → α) (n : Fin u.numel) =>
      match d.resultIdx? (u.rowMajor.symm n) idx with
      | some i₀ => fun i' => if i' = i₀ then (fun _ b => b) (r i₀) (upd (u.rowMajor.symm n)) else r i'
      | none => r) i (fun n => d.resultIdx? (u.rowMajor.symm n) idx = some i) v
    (by
      intro r n hb
      have hu := hv _ hb
      dsimp only
      generalize d.resultIdx? (u.rowMajor.symm n) idx = o at hb
      subst hb
      dsimp only
      rw [if_pos rfl]
      exact hu)
    (by
      intro r n hb
      dsimp only
      generalize d.resultIdx? (u.rowMajor.symm n) idx = o at hb
      cases o with
      | none => rfl
      | some i₀ =>
        dsimp only
        rw [if_neg (fun e : i = i₀ => hb (e ▸ rfl))])
    (List.finRange u.numel) x
  refine ⟨fun ⟨j, hj⟩ => key.1 ⟨u.rowMajor j, List.mem_finRange _, by rw [Equiv.symm_apply_apply]; exact hj⟩,
    fun h => key.2 fun n _ => h _⟩

/-- Some update lands on `i`, and every update landing there carries `v`: the scatter's result at `i` is `v`. -/
theorem scatter_set_of_hit (d : ScatterDims s si u) (x : s.Idx → α) (idx : IVec si w) (upd : u.Idx → α) (i : s.Idx) (v : α)
    (hv : ∀ j, d.resultIdx? j idx = some i → upd j = v) (h : ∃ j, d.resultIdx? j idx = some i) :
    Host.scatter d (fun _ b => b) x idx upd i = v :=
  (scatter_set_fold d x idx upd i v hv).1 h

/-- No update lands on `i`: the scatter's result at `i` is the operand's element. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i :=
  (scatter_set_fold d x idx upd i (x i) (fun j hj => absurd hj (h j))).2 h

/-- An update lands on `i` exactly when, on every axis of the operand, the start read off the indices plus the
    update's window coordinate is `i`'s coordinate (an equation between integers: a start may be negative or too
    large, and then no index of the operand satisfies it). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hb : ∀ a, 0 ≤ d.start j idx a + (d.window j a : Int) ∧ d.start j idx a + (d.window j a : Int) < s.size a
    · rw [dif_pos hb] at h
      have e := congrFun (Option.some.inj h) a
      have ea : (d.start j idx a + (d.window j a : Int)).toNat = (i a).val := congrArg Fin.val e
      have := (hb a).1
      omega
    · rw [dif_neg hb] at h
      exact absurd h (by simp)
  · intro h
    have hb : ∀ a, 0 ≤ d.start j idx a + (d.window j a : Int) ∧ d.start j idx a + (d.window j a : Int) < s.size a := fun a => by
      have := h a
      have := (i a).isLt
      omega
    rw [dif_pos hb]
    congr 1
    funext a
    apply Fin.ext
    show (d.start j idx a + (d.window j a : Int)).toNat = (i a).val
    have := h a
    omega

end Idealize.ShloMosaic.ScatterSet
-- ==== Proof.Layout.lean ====
/-
  Rows and their two layouts.

  A node (or edge) array with 128 features per row is written either as [A, 128] or, with the features split into
  8 heads of 16, as [A, 8, 16]; element (r, a, b) of the second is element (r, 16 a + b) of the first.  This module
  records that correspondence and reads, at one index, the two operations that move whole rows in both layouts:

  * the row gather: result row e is the operand's row number idx[e, 0], read as a signed integer and clamped into
    the operand's rows; the feature coordinates pass through unchanged;
  * the accumulating row scatter: update row e lands on operand row idx[e, 0] (read signed, not clamped; an update
    whose row number is negative or too large is dropped) at the same feature coordinates.

  Consequently both operations commute with the change of layout.
-/
import proofs.«148838_j67121748902425_1_alg».proof.Proof.Gen.KernelIdeal
import proofs.«148838_j67121748902425_1_alg».proof.Proof.Gen.ReferenceIdeal
import proofs.«148838_j67121748902425_1_alg».proof.Proof.LibScatterSet
import Idealize.ShloMosaic.Lib.ValueIdx
import Idealize.ShloMosaic.Lib.Pipeline.Value
import Idealize.ShloMosaic.PureOps.Ideal.Laws

noncomputable section

namespace Cert.EdgeAttn.Layout

open Idealize.ShloMosaic Idealize.ShloMosaic.ValueIdx
open scoped BigOperators

/-- Node rows by features, and the same with the features split into heads. -/
abbrev SN2 : Shape := ⟨2, ![40000, 128]⟩
abbrev SN3 : Shape := ⟨3, ![40000, 8, 16]⟩
/-- Edge rows by features, and the same with the features split into heads. -/
abbrev SE2 : Shape := ⟨2, ![640000, 128]⟩
abbrev SE3 : Shape := ⟨3, ![640000, 8, 16]⟩
/-- One row number per edge, as a column. -/
abbrev SI : Shape := ⟨2, ![640000, 1]⟩

abbrev gd2 : GatherDims SN2 SI SE2 := Cert.KernelIdeal.gather_S40000x128_S640000x1_S640000x128_1_0_n_n_0_1_1128
abbrev gd3 : GatherDims SN3 SI SE3 := Cert.ReferenceIdeal.gather_S40000x8x16_S640000x1_S640000x8x16_12_0_n_n_0_1_1816
abbrev sd2 : ScatterDims SN2 SI SE2 := Cert.KernelIdeal.scatter_S40000x128_S640000x1_S640000x128_1_0_0_1
abbrev sd3 : ScatterDims SN3 SI SE3 := Cert.ReferenceIdeal.scatter_S40000x8x16_S640000x1_S640000x8x16_12_0_0_1

/-! ## The change of layout in coordinates -/

/-- Element (r, a, b) of the split layout is element (r, 16 a + b) of the flat one, for any number of rows. -/
theorem split_coords {A : ℕ} (h : (⟨3, ![A, 8, 16]⟩ : Shape).numel = (⟨2, ![A, 128]⟩ : Shape).numel)
    (i : (⟨3, ![A, 8, 16]⟩ : Shape).Idx) :
    ((Shape.reshapeEquiv h i) 0).val = (i 0).val ∧ ((Shape.reshapeEquiv h i) 1).val = (i 1).val * 16 + (i 2).val := by
  have e := Shape.rowMajor_reshapeEquiv h i
  rw [Shape.rowMajor_val_two, Shape.rowMajor_val_three] at e
  have e' : ((Shape.reshapeEquiv h i) 0).val * 128 + ((Shape.reshapeEquiv h i) 1).val
      = ((i 0).val * 8 + (i 1).val) * 16 + (i 2).val := e
  have b1 : ((Shape.reshapeEquiv h i) 1).val < 128 := ((Shape.reshapeEquiv h i) 1).isLt
  have c1 : (i 1).val < 8 := (i 1).isLt
  have c2 : (i 2).val < 16 := (i 2).isLt
  omega

/-- The row a start word selects in a gather: read signed, clamped into the 40000 rows. -/
def rowOf {w : ℕ} (I : IVec SI w) (e : Fin 640000) : Fin 40000 :=
  ⟨min (I (ix2 e (0 : Fin 1))).toInt.toNat 39999, by omega⟩

/-! ## The row gather at an index -/

theorem gather2_apply {α : Type} {w : ℕ} (X : SN2.Idx → α) (I : IVec SI w) (j : SE2.Idx) :
    Host.gather gd2 X I j = X (ix2 (rowOf I (j 0)) (j 1)) := by
  unfold Host.gather
  congr 1
  funext a
  refine Fin.ext ?_
  have hsi : gd2.siIdx j ⟨List.idxOf (0 : Fin SN2.rank) gd2.startIndexMap,
      List.idxOf_lt_length_iff.2 (by decide)⟩ = ix2 (j 0) (0 : Fin 1) := by
    funext b; refine Fin.ext ?_
    match b with
    | ⟨0, _⟩ => rfl
    | ⟨1, _⟩ => rfl
  match a with
  | ⟨0, _⟩ =>
    show gd2.start j I 0 + gd2.batchCoord j 0 + gd2.offCoord j 0 = _
    rw [GatherDims.batchCoord_eq_zero _ _ _ (by decide), GatherDims.offCoord_eq_zero _ _ _ (by decide)]
    unfold GatherDims.start
    rw [dif_pos (show (0 : Fin SN2.rank) ∈ gd2.startIndexMap by decide), hsi]
    rfl
  | ⟨1, _⟩ =>
    show gd2.start j I 1 + gd2.batchCoord j 1 + gd2.offCoord j 1 = _
    rw [GatherDims.batchCoord_eq_zero _ _ _ (by decide)]
    unfold GatherDims.start GatherDims.offCoord
    rw [dif_neg (show (1 : Fin SN2.rank) ∉ gd2.startIndexMap by decide), dif_pos (show (1 : Fin SN2.rank) ∈ gd2.sKept by decide)]
    show 0 + 0 + (j 1).val = (j 1).val
    omega

theorem gather3_apply {α : Type} {w : ℕ} (X : SN3.Idx → α) (I : IVec SI w) (j : SE3.Idx) :
    Host.gather gd3 X I j = X (ix3 (rowOf I (j 0)) (j 1) (j 2)) := by
  unfold Host.gather
  congr 1
  funext a
  refine Fin.ext ?_
  have hsi : gd3.siIdx j ⟨List.idxOf (0 : Fin SN3.rank) gd3.startIndexMap,
      List.idxOf_lt_length_iff.2 (by decide)⟩ = ix2 (j 0) (0 : Fin 1) := by
    funext b; refine Fin.ext ?_
    match b with
    | ⟨0, _⟩ => rfl
    | ⟨1, _⟩ => rfl
  match a with
  | ⟨0, _⟩ =>
    show gd3.start j I 0 + gd3.batchCoord j 0 + gd3.offCoord j 0 = _
    rw [GatherDims.batchCoord_eq_zero _ _ _ (by decide), GatherDims.offCoord_eq_zero _ _ _ (by decide)]
    unfold GatherDims.start
    rw [dif_pos (show (0 : Fin SN3.rank) ∈ gd3.startIndexMap by decide), hsi]
    rfl
  | ⟨1, _⟩ =>
    show gd3.start j I 1 + gd3.batchCoord j 1 + gd3.offCoord j 1 = _
    rw [GatherDims.batchCoord_eq_zero _ _ _ (by decide)]
    unfold GatherDims.start GatherDims.offCoord
    rw [dif_neg (show (1 : Fin SN3.rank) ∉ gd3.startIndexMap by decide), dif_pos (show (1 : Fin SN3.rank) ∈ gd3.sKept by decide)]
    show 0 + 0 + (j 1).val = (j 1).val
    omega
  | ⟨2, _⟩ =>
    show gd3.start j I 2 + gd3.batchCoord j 2 + gd3.offCoord j 2 = _
    rw [GatherDims.batchCoord_eq_zero _ _ _ (by decide)]
    unfold GatherDims.start GatherDims.offCoord
    rw [dif_neg (show (2 : Fin SN3.rank) ∉ gd3.startIndexMap by decide), dif_pos (show (2 : Fin SN3.rank) ∈ gd3.sKept by decide)]
    show 0 + 0 + (j 2).val = (j 2).val
    omega

/-- The row gather commutes with splitting the features into heads. -/
theorem gather_split {α : Type} {w : ℕ} (X : SN2.Idx → α) (I : IVec SI w) (hN : SN2.ShapeCasts SN3) (hE : SE2.ShapeCasts SE3) :
    Host.gather gd3 (shapeCast SN3 X hN) I = shapeCast SE3 (Host.gather gd2 X I) hE := by
  funext j
  rw [gather3_apply]
  unfold shapeCast
  rw [gather2_apply]
  obtain ⟨e0, e1⟩ := split_coords hE j
  have h0 : (Shape.reshapeEquiv hE j) 0 = j 0 := Fin.ext e0
  rw [h0]
  congr 1
  refine Shape.reshapeEquiv_eq_of_rowMajor hN ?_
  rw [Shape.rowMajor_val_two, Shape.rowMajor_val_three]
  show (rowOf I (j 0)).val * 128 + ((Shape.reshapeEquiv hE j) 1).val = ((rowOf I (j 0)).val * 8 + (j 1).val) * 16 + (j 2).val
  omega

/-! ## The accumulating row scatter at an index -/

theorem lands2_iff {w : ℕ} (I : IVec SI w) (j : SE2.Idx) (i : SN2.Idx) :
    sd2.resultIdx? j I = some i ↔ (I (ix2 (j 0) (0 : Fin 1))).toInt = ((i 0).val : Int) ∧ (j 1).val = (i 1).val := by
  rw [ScatterSet.resultIdx?_eq_some_iff]
  have hsi : sd2.siIdx j ⟨List.idxOf (0 : Fin SN2.rank) sd2.scatterDimsToOperandDims,
      List.idxOf_lt_length_iff.2 (by decide)⟩ = ix2 (j 0) (0 : Fin 1) := by
    funext b; refine Fin.ext ?_
    match b with
    | ⟨0, _⟩ => rfl
    | ⟨1, _⟩ => rfl
  have s0 : sd2.start j I 0 = (I (ix2 (j 0) (0 : Fin 1))).toInt := by
    unfold ScatterDims.start
    rw [dif_pos (show (0 : Fin SN2.rank) ∈ sd2.scatterDimsToOperandDims by decide), hsi]
    rfl
  have s1 : sd2.start j I 1 = 0 := by
    unfold ScatterDims.start
    rw [dif_neg (show (1 : Fin SN2.rank) ∉ sd2.scatterDimsToOperandDims by decide)]
  have w0 : sd2.window j 0 = 0 := by
    unfold ScatterDims.window
    rw [dif_neg (show (0 : Fin SN2.rank) ∉ sd2.sKept by decide)]
  have w1 : sd2.window j 1 = (j 1).val := by
    unfold ScatterDims.window
    rw [dif_pos (show (1 : Fin SN2.rank) ∈ sd2.sKept by decide)]
    rfl
  constructor
  · intro h
    have h0 := h 0
    have h1 := h 1
    rw [s0, w0] at h0
    rw [s1, w1] at h1
    exact ⟨by simpa using h0, by exact_mod_cast (by simpa using h1 : ((j 1).val : Int) = ((i 1).val : Int))⟩
  · rintro ⟨h0, h1⟩ a
    match a with
    | ⟨0, _⟩ => show sd2.start j I 0 + (sd2.window j 0 : Int) = ((i 0).val : Int); rw [s0, w0, h0]; simp
    | ⟨1, _⟩ => show sd2.start j I 1 + (sd2.window j 1 : Int) = ((i 1).val : Int); rw [s1, w1, h1]; simp

theorem lands3_iff {w : ℕ} (I : IVec SI w) (j : SE3.Idx) (i : SN3.Idx) :
    sd3.resultIdx? j I = some i ↔
      (I (ix2 (j 0) (0 : Fin 1))).toInt = ((i 0).val : Int) ∧ (j 1).val = (i 1).val ∧ (j 2).val = (i 2).val := by
  rw [ScatterSet.resultIdx?_eq_some_iff]
  have hsi : sd3.siIdx j ⟨List.idxOf (0 : Fin SN3.rank) sd3.scatterDimsToOperandDims,
      List.idxOf_lt_length_iff.2 (by decide)⟩ = ix2 (j 0) (0 : Fin 1) := by
    funext b; refine Fin.ext ?_
    match b with
    | ⟨0, _⟩ => rfl
    | ⟨1, _⟩ => rfl
  have s0 : sd3.start j I 0 = (I (ix2 (j 0) (0 : Fin 1))).toInt := by
    unfold ScatterDims.start
    rw [dif_pos (show (0 : Fin SN3.rank) ∈ sd3.scatterDimsToOperandDims by decide), hsi]
    rfl
  have s1 : sd3.start j I 1 = 0 := by
    unfold ScatterDims.start
    rw [dif_neg (show (1 : Fin SN3.rank) ∉ sd3.scatterDimsToOperandDims by decide)]
  have s2 : sd3.start j I 2 = 0 := by
    unfold ScatterDims.start
    rw [dif_neg (show (2 : Fin SN3.rank) ∉ sd3.scatterDimsToOperandDims by decide)]
  have w0 : sd3.window j 0 = 0 := by
    unfold ScatterDims.window
    rw [dif_neg (show (0 : Fin SN3.rank) ∉ sd3.sKept by decide)]
  have w1 : sd3.window j 1 = (j 1).val := by
    unfold ScatterDims.window
    rw [dif_pos (show (1 : Fin SN3.rank) ∈ sd3.sKept by decide)]
    rfl
  have w2 : sd3.window j 2 = (j 2).val := by
    unfold ScatterDims.window
    rw [dif_pos (show (2 : Fin SN3.rank) ∈ sd3.sKept by decide)]
    rfl
  constructor
  · intro h
    have h0 := h 0
    have h1 := h 1
    have h2 := h 2
    rw [s0, w0] at h0
    rw [s1, w1] at h1
    rw [s2, w2] at h2
    exact ⟨by simpa using h0, by exact_mod_cast (by simpa using h1 : ((j 1).val : Int) = ((i 1).val : Int)),
      by exact_mod_cast (by simpa using h2 : ((j 2).val : Int) = ((i 2).val : Int))⟩
  · rintro ⟨h0, h1, h2⟩ a
    match a with
    | ⟨0, _⟩ => show sd3.start j I 0 + (sd3.window j 0 : Int) = ((i 0).val : Int); rw [s0, w0, h0]; simp
    | ⟨1, _⟩ => show sd3.start j I 1 + (sd3.window j 1 : Int) = ((i 1).val : Int); rw [s1, w1, h1]; simp
    | ⟨2, _⟩ => show sd3.start j I 2 + (sd3.window j 2 : Int) = ((i 2).val : Int); rw [s2, w2, h2]; simp

/-- The accumulating row scatter commutes with splitting the features into heads: an update lands on (n, a, b) in
    the split layout exactly when its flat image lands on (n, 16 a + b), so the two sums run over matched updates. -/
theorem scatterAdd_split {w : ℕ} (Z : SN2.Idx → EReal) (I : IVec SI w) (U : SE2.Idx → EReal)
    (hN : SN2.ShapeCasts SN3) (hE : SE2.ShapeCasts SE3) :
    Host.scatterAdd (F := Ideal) (φ := .f32) sd3 (shapeCast SN3 Z hN) I (shapeCast SE3 U hE)
      = shapeCast SN3 (Host.scatterAdd (F := Ideal) (φ := .f32) sd2 Z I U) hN := by
  funext i
  unfold Host.scatterAdd
  rw [Ideal.hostScatterAdd_def, Ideal.hostScatterAdd_def]
  unfold shapeCast Ideal.hostScatterAdd
  show Z (Shape.reshapeEquiv hN i) + _ = Z (Shape.reshapeEquiv hN i) + _
  refine congrArg (fun s => Z (Shape.reshapeEquiv hN i) + s) ?_
  refine Finset.sum_equiv (Shape.reshapeEquiv hE) (fun j => ?_) (fun j _ => rfl)
  simp only [Finset.mem_filter, Finset.mem_univ, true_and]
  rw [lands3_iff, lands2_iff]
  obtain ⟨e0, e1⟩ := split_coords hE j
  obtain ⟨f0, f1⟩ := split_coords hN i
  have h0 : (Shape.reshapeEquiv hE j) 0 = j 0 := Fin.ext e0
  rw [h0, e1, f0, f1]
  have c1 : (j 1).val < 8 := (j 1).isLt
  have c2 : (j 2).val < 16 := (j 2).isLt
  have d1 : (i 1).val < 8 := (i 1).isLt
  have d2 : (i 2).val < 16 := (i 2).isLt
  constructor
  · rintro ⟨a, b, c⟩; exact ⟨a, by omega⟩
  · rintro ⟨a, b⟩; exact ⟨a, by omega, by omega⟩

/-! ## Operations that do not look at the layout -/

/-- A scalar laid over every element is the same in both layouts. -/
theorem bcast_split {α : Type} {A : ℕ} (s : (⟨0, ![]⟩ : Shape).Idx → α)
    (h3 : (⟨0, ![]⟩ : Shape).BroadcastsInDim (⟨3, ![A, 8, 16]⟩ : Shape) ![])
    (h2 : (⟨0, ![]⟩ : Shape).BroadcastsInDim (⟨2, ![A, 128]⟩ : Shape) ![])
    (hc : (⟨2, ![A, 128]⟩ : Shape).ShapeCasts (⟨3, ![A, 8, 16]⟩ : Shape)) :
    broadcastInDim (⟨3, ![A, 8, 16]⟩ : Shape) ![] h3 s = shapeCast _ (broadcastInDim (⟨2, ![A, 128]⟩ : Shape) ![] h2 s) hc := by
  funext j
  unfold broadcastInDim shapeCast
  exact congrArg s (funext fun a => a.elim0)

end Cert.EdgeAttn.Layout

end
-- ==== Proof.Words.lean ====
/-
  The three float constants that meet in the score's scale, as the extended reals they denote:
  16, 1 and 1/4; and the one identity between them, 1 / sqrt 16 = 1/4 (16 is the square of 4, so the
  square root is exact).
-/
import Idealize.ShloMosaic.PureOps.Ideal
import Idealize.ShloMosaic.PureOps.Ideal.Laws

noncomputable section

namespace Cert.EdgeAttn.Words

open Idealize.ShloMosaic

/-- The word of 16.0 denotes 16. -/
theorem word_sixteen : Ideal.ofBits .f32 0x41800000#32 = ((16 : ℝ) : EReal) := by
  simp [Ideal.ofBits, Ideal.ieee, -EReal.coe_mul]; norm_num

/-- The word of 1.0 denotes 1. -/
theorem word_one : Ideal.ofBits .f32 0x3F800000#32 = ((1 : ℝ) : EReal) := by
  simp [Ideal.ofBits, Ideal.ieee, -EReal.coe_mul]; norm_num

/-- The word of 0.25 denotes 1/4. -/
theorem word_quarter : Ideal.ofBits .f32 0x3E800000#32 = ((1 / 4 : ℝ) : EReal) := by
  simp [Ideal.ofBits, Ideal.ieee, -EReal.coe_mul]; norm_num

/-- The square root of 16 is 4. -/
theorem sqrt_sixteen : Real.sqrt 16 = 4 := by
  rw [show (16 : ℝ) = 4 ^ 2 by norm_num]
  exact Real.sqrt_sq (by norm_num)

/-- 1 / sqrt 16, computed on the extended reals from the words of 1.0 and 16.0, is the word of 0.25. -/
theorem one_over_sqrt_sixteen :
    Ideal.div (Ideal.ofBits .f32 0x3F800000#32) (Ideal.sqrt (Ideal.ofBits .f32 0x41800000#32))
      = Ideal.ofBits .f32 0x3E800000#32 := by
  rw [word_one, word_sixteen, word_quarter, Ideal.sqrt_coe, if_neg (by norm_num), sqrt_sixteen,
    Ideal.div_coe (by norm_num : (4 : ℝ) ≠ 0), ← EReal.coe_mul]
  norm_num

end Cert.EdgeAttn.Words

end
-- ==== Proof.Spec.lean ====
/-
  The result as one formula, in the flat layout [40000, 128].

  With Q = h·WQ, K = h·WK, V = h·WV (each (n, j) entry the sum over k of h(n, k) W(k, j)), an edge e with end rows
  s = src[e] and d = dst[e] (a negative row number counted from the end, then clamped into the rows) carries

      score(e, j)    = K(s, j) · Q(d, j) · 1/4
      weighted(e, j) = V(s, j) · score(e, j)

  and node n receives z(n, j) = Σ over edges e with dst[e] = n of score(e, j), and wV(n, j) likewise of weighted;
  the result is wV / (z + ε).  The sums and products are those of the extended reals; nothing here needs the
  entries to be finite.
-/
import proofs.«148838_j67121748902425_1_alg».proof.Proof.Layout
import proofs.«148838_j67121748902425_1_alg».proof.Proof.Words

noncomputable section

namespace Cert.EdgeAttn

open Idealize.ShloMosaic Idealize.ShloMosaic.ValueIdx Cert.EdgeAttn.Layout
open scoped BigOperators

/-- A weight matrix, a scalar, a vector of row numbers. -/
abbrev SW : Shape := ⟨2, ![128, 128]⟩
abbrev S0 : Shape := ⟨0, ![]⟩
abbrev SV : Shape := ⟨1, ![640000]⟩

theorem bc_scalar_N2 : S0.BroadcastsInDim SN2 (![] : Fin 0 → Fin SN2.rank) := by decide
theorem bc_scalar_E2 : S0.BroadcastsInDim SE2 (![] : Fin 0 → Fin SE2.rank) := by decide
theorem bc_scalar_V : S0.BroadcastsInDim SV (![] : Fin 0 → Fin SV.rank) := by decide
theorem bc_col : SV.BroadcastsInDim SI (![0] : Fin 1 → Fin SI.rank) := by decide
theorem cast_N : SN2.ShapeCasts SN3 := by decide
theorem cast_E : SE2.ShapeCasts SE3 := by decide

/-- Entry (p, q) of the product of the node features with a weight matrix. -/
def projAt (h : SN2.Idx → EReal) (W : SW.Idx → EReal) (p : Fin 40000) (q : Fin 128) : EReal :=
  ∑ k : Fin 128, h (ix2 p k) * W (ix2 k q)

/-- The product of the node features with a weight matrix. -/
def proj (h : SN2.Idx → EReal) (W : SW.Idx → EReal) : SN2.Idx → EReal :=
  fun i => projAt h W ⟨(i 0).val, idx2_lt0 i⟩ ⟨(i 1).val, idx2_lt1 i⟩

/-- Row numbers as a gather reads them: a negative number has the row count added, and the vector becomes a column. -/
def wrapRows (x : IVec SV 32) : IVec SI 32 :=
  broadcastInDim SI ![0] bc_col
    (select (cmpi .slt x (broadcastInDim SV ![] bc_scalar_V (constantI S0 32 0#32)))
      (addi x (broadcastInDim SV ![] bc_scalar_V (constantI S0 32 40000#32))) x)

/-- Row numbers as the scatter reads them: the vector as a column, unchanged. -/
def column (x : IVec SV 32) : IVec SI 32 := broadcastInDim SI ![0] bc_col x

/-- The per-edge score: K at the source row times Q at the destination row, times 1/4. -/
def score (K Q : SN2.Idx → EReal) (src dst : IVec SV 32) : SE2.Idx → EReal :=
  fun i => (Host.gather gd2 K (wrapRows src) i * Host.gather gd2 Q (wrapRows dst) i) * Ideal.ofBits .f32 0x3E800000#32

/-- The per-edge weighted value: V at the source row times the score. -/
def weighted (V : SN2.Idx → EReal) (src : IVec SV 32) (sc : SE2.Idx → EReal) : SE2.Idx → EReal :=
  fun i => Host.gather gd2 V (wrapRows src) i * sc i

/-- Both per-edge arrays summed into their destination rows, and the quotient wV / (z + ε). -/
def normalize (dst : IVec SV 32) (sc wt : SE2.Idx → EReal) : SN2.Idx → EReal :=
  Host.divf (F := Ideal) (φ := .f32)
    (Host.scatterAdd (F := Ideal) (φ := .f32) sd2
      (broadcastInDim SN2 ![] bc_scalar_N2 (constant (F := Ideal) S0 .f32 0x00000000#32)) (column dst) wt)
    (addf (F := Ideal) (φ := .f32)
      (Host.scatterAdd (F := Ideal) (φ := .f32) sd2
        (broadcastInDim SN2 ![] bc_scalar_N2 (constant (F := Ideal) S0 .f32 0x00000000#32)) (column dst) sc)
      (broadcastInDim SN2 ![] bc_scalar_N2 (constant (F := Ideal) S0 .f32 0x358637BD#32)))

/-- The whole result in the flat layout. -/
def attention (h : SN2.Idx → EReal) (src dst : IVec SV 32) (WQ WK WV : SW.Idx → EReal) : SN2.Idx → EReal :=
  normalize dst (score (proj h WK) (proj h WQ) src dst)
    (weighted (proj h WV) src (score (proj h WK) (proj h WQ) src dst))

end Cert.EdgeAttn

end
-- ==== Proof.KernelProjections.lean ====
/-
  The first region: the three node projections.

  Grid point t of the first region loads rows 4000 t … 4000 t + 3999 of the node features and the three whole weight
  matrices, and stores into the same rows of Q, K and V the product of the feature block with the weight matrix
  (rounding the operands to bf16 is the identity on the extended reals).  So block t of each output is block t of
  the whole-array product, the ten blocks tile the 40000 rows, and after the region each output array is the
  product h·W.
-/
import proofs.«148838_j67121748902425_1_alg».proof.Proof.Gen.KernelIdeal.Frame
import proofs.«148838_j67121748902425_1_alg».proof.Proof.LibMatmulRows
import proofs.«148838_j67121748902425_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Projections

open Cert.KernelIdeal Cert.KernelIdeal.Gen Cert.KernelIdeal.Facts₀ Cert.EdgeAttn Cert.EdgeAttn.Layout

theorem hz : (![0, 0] : Fin 2 → Nat) = fun _ => 0 := funext fun a => by fin_cases a <;> rfl

abbrev dotK := dot_S4000x128_S128x128_S4000x128_1_0_0_1_n_n

theorem dotK_l0 (i : S4000x128.Idx) (q : dotK.contr.Idx) : (dotK.lhsIdx i q 0).val = (i 0).val := by
  unfold DotDims.lhsIdx
  rw [dif_neg (show ¬(0 : Fin S4000x128.rank) ∈ dotK.lhsBatch by decide),
    dif_pos (show (0 : Fin S4000x128.rank) ∈ dotK.lhsNonContracting by decide)]
  rfl
theorem dotK_l1 (i : S4000x128.Idx) (q : dotK.contr.Idx) : (dotK.lhsIdx i q 1).val = (q ⟨0, by decide⟩).val :=
  dotK.lhsIdx_val_of_single rfl i q
theorem dotK_r0 (i : S4000x128.Idx) (q : dotK.contr.Idx) : (dotK.rhsIdx i q 0).val = (q ⟨0, by decide⟩).val :=
  dotK.rhsIdx_val_of_single rfl i q
theorem dotK_r1 (i : S4000x128.Idx) (q : dotK.contr.Idx) : (dotK.rhsIdx i q 1).val = (i 1).val := by
  unfold DotDims.rhsIdx
  rw [dif_neg (show ¬(1 : Fin S128x128.rank) ∈ dotK.rhsBatch by decide),
    dif_pos (show (1 : Fin S128x128.rank) ∈ dotK.rhsNonContracting by decide)]
  rfl

/-- One block of the product: if the feature block x0 is rows 4000 b … of the array A and w is the weight matrix W,
    then entry y of the block's product is entry i of A·W, where i is y moved down by 4000 b rows. -/
theorem block_rows (A : SN2.Idx → EReal) (W : SW.Idx → EReal) (x0 : Vec Ideal S4000x128 .f32) (w : Vec Ideal S128x128 .f32) (b : ℕ)
    (hx0 : ∀ (y : S4000x128.Idx) (i : SN2.Idx), (i 0).val = b * 4000 + (y 0).val → (i 1).val = (y 1).val → x0 y = A i)
    (hw : ∀ y : S128x128.Idx, w y = W y)
    (y : S4000x128.Idx) (i : SN2.Idx) (hi0 : (i 0).val = b * 4000 + (y 0).val) (hi1 : (i 1).val = (y 1).val) :
    matmul dotK none (truncf .bf16 x0 Facts₀.bitsLt_bf16_f32) (truncf .bf16 w Facts₀.bitsLt_bf16_f32)
      (constant (F := Ideal) S4000x128 .f32 0x00000000#32) y = proj A W i := by
  obtain ⟨p, q, rfl⟩ : ∃ (p : Fin 4000) (q : Fin 128), y = ix2 p q := ⟨y 0, y 1, eq_ix2 y⟩
  rw [LibMatmulRows.matmul_rows dotK rfl rfl dotK_l0 dotK_l1 dotK_r0 dotK_r1]
  unfold proj projAt
  have hq : (⟨(i 1).val, idx2_lt1 i⟩ : Fin 128) = q := Fin.ext hi1
  rw [hq]
  refine Finset.sum_congr rfl fun k _ => ?_
  show x0 (ix2 p k) * w (ix2 k q) = _
  rw [hx0 (ix2 p k) (ix2 ⟨(i 0).val, idx2_lt0 i⟩ k) hi0 rfl, hw]

section Region
variable (V : (c : Dev nD) → (b : Ref sig .tc) → Buf (Elt Ideal) ((c : Thread nD τ).loc b))

/-- The printed index maps over the grid: the feature window and the three outputs sit at block row t, the weight
    windows at the origin. -/
theorem idx_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature window's block at point t is rows 4000 t … of the feature array. -/
theorem features_block (c : Dev nD) (t : Fin cfg0.N) (y : S4000x128.Idx) (i : SN2.Idx)
    (h0 : (i 0).val = t.val * 4000 + (y 0).val) (h1 : (i 1).val = (y 1).val) :
    (iblk0 V c 0 t : Vec Ideal S4000x128 .f32) y = (V c main_arg0 : SN2.Idx → EReal) i := by
  obtain ⟨a0, a1, -⟩ := idx_maps t
  unfold iblk0
  rw [View.read_apply]
  show V c main_arg0 _ = V c main_arg0 _
  congr 1
  funext a
  apply Fin.ext
  match a with
  | ⟨0, _⟩ => show win0_0.index t (0 : Fin 2) * 4000 + 1 * (y 0).val = (i 0).val; rw [a0, h0]; omega
  | ⟨1, _⟩ => show win0_0.index t (1 : Fin 2) * 128 + 1 * (y 1).val = (i 1).val; rw [a1, h1]; omega

/-- The query weight window's block at any point is the whole weight matrix. -/
theorem weightsQ_block (c : Dev nD) (t : Fin cfg0.N) (y : S128x128.Idx) :
    (iblk0 V c 1 t : Vec Ideal S128x128 .f32) y = (V c main_arg3 : SW.Idx → EReal) y := by
  obtain ⟨a0, a1, b0, b1, c0, c1, d0, d1, q0, q1, k0, k1, v0, v1⟩ := idx_maps t
  unfold iblk0
  show V c main_arg3 _ = V c main_arg3 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back to Q is block t of the product of the features with the query weights. -/
theorem flushedQ (c : Dev nD) (t : Fin cfg0.N) :
    (dat0 V c).flushed 4 t = ((cfg0.win 4).blk t).view.read (Elt Ideal) (proj (V c main_arg0) (V c main_arg3)) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz]
  obtain ⟨a0, a1, b0, b1, c0, c1, d0, d1, q0, q1, k0, k1, v0, v1⟩ := idx_maps t
  funext y
  show k0_pay2 (iblk0 V c 0 t) (iblk0 V c 1 t) y = proj (V c main_arg0) (V c main_arg3) (((cfg0.win 4).blk t).view.emb y)
  exact block_rows (V c main_arg0) (V c main_arg3) (iblk0 V c 0 t) (iblk0 V c 1 t) t.val
    (fun y' i h0 h1 => features_block V c t y' i h0 h1) (fun y' => weightsQ_block V c t y')
    y (((cfg0.win 4).blk t).view.emb y)
    (by show win0_4.index t (0 : Fin 2) * 4000 + 1 * (y 0).val = t.val * 4000 + (y 0).val; omega)
    (by show win0_4.index t (1 : Fin 2) * 128 + 1 * (y 1).val = (y 1).val; omega)

/-- The ten row blocks of Q tile its 40000 rows: row r is in block r / 4000. -/
theorem coverQ (i : SN2.Idx) :
    ∃ t : Fin cfg0.N, (cfg0.win 4).flush t = true ∧ i ∈ ((cfg0.win 4).blk t).view.set := by
  have hi0 : (i 0).val < 40000 := idx2_lt0 i
  have hi1 : (i 1).val < 128 := idx2_lt1 i
  have hN : cfg0.N = 10 := N_0
  obtain ⟨t, ht⟩ : ∃ t : Fin cfg0.N, t.val = (i 0).val / 4000 := ⟨⟨(i 0).val / 4000, by rw [hN]; omega⟩, rfl⟩
  obtain ⟨a0, a1, b0, b1, c0, c1, d0, d1, q0, q1, k0, k1, v0, v1⟩ := idx_maps t
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-- After the region, Q is the product of the features with the query weights. -/
theorem finalQ (c : Dev nD) : (dat0 V c).arrAt 4 cfg0.N = proj (V c main_arg0) (V c main_arg3) :=
  (dat0 V c).arrAt_eq_of_cover 4 (proj (V c main_arg0) (V c main_arg3)) (fun t _ => flushedQ V c t) (fun i => coverQ i)

/-- The key weight window's block at any point is the whole weight matrix. -/
theorem weightsK_block (c : Dev nD) (t : Fin cfg0.N) (y : S128x128.Idx) :
    (iblk0 V c 2 t : Vec Ideal S128x128 .f32) y = (V c main_arg4 : SW.Idx → EReal) y := by
  obtain ⟨a0, a1, b0, b1, c0, c1, d0, d1, q0, q1, k0, k1, v0, v1⟩ := idx_maps t
  unfold iblk0
  show V c main_arg4 _ = V c main_arg4 _
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- What point t writes back to K is block t of the product of the features with the key weights. -/
theorem flushedK (c : Dev nD) (t : Fin cfg0.N) :
    (dat0 V c).flushed 5 t = ((cfg0.win 5).blk t).view.read (Elt Ideal) (proj (V c main_arg0) (V c main_arg4)) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz]
  obtain ⟨a0, a1, b0, b1, c0, c1, d0, d1, q0, q1, k0, k1, v0, v1⟩ := idx_maps t
  funext y
  show k0_pay3 (iblk0 V c 0 t) (iblk0 V c 2 t) y = proj (V c main_arg0) (V c main_arg4) (((cfg0.win 5).blk t).view.emb y)
  exact block_rows (V c main_arg0) (V c main_arg4) (iblk0 V c 0 t) (iblk0 V c 2 t) t.val
    (fun y' i h0 h1 => features_block V c t y' i h0 h1) (fun y' => weightsK_block V c t y')
    y (((cfg0.win 5).blk t).view.emb y)
    (by show win0_5.index t (0 : Fin 2) * 4000 + 1 * (y 0).val = t.val * 4000 + (y 0).val; omega)
    (by show win0_5.index t (1 : Fin 2) * 128 + 1 * (y 1).val = (y 1).val; omega)

/-- The ten row blocks of K tile its 40000 rows: row r is in block r / 4000. -/
theorem coverK (i : SN2.Idx) :
    ∃ t : Fin cfg0.N, (cfg0.win 5).flush t = true ∧ i ∈ ((cfg0.win 5).blk t).view.set := by
  have hi0 : (i 0).val < 40000 := idx2_lt0 i
  have hi1 : (i 1).val < 128 := idx2_lt1 i
  have hN : cfg0.N = 10 := N_0
  obtain ⟨t, ht⟩ : ∃ t : Fin cfg0.N, t.val = (i 0).val / 4000 := ⟨⟨(i 0).val / 4000, by rw [hN]; omega⟩, rfl⟩
  obtain ⟨a0, a1, b0, b1, c0, c1, d0, d1, q0, q1, k0, k1, v0, v1⟩ := idx_maps t
  refine ⟨t, flush0_5 t, ?_⟩
  show i ∈ ((View.whole main_v0_1).slice (win0_5.rect t)).set
  rw [View.set_slice_whole, Rect.mem_set_unit]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- After the region, K is the product of the features with the key weights. -/
theorem finalK (c : Dev nD) : (dat0 V c).arrAt 5 cfg0.N = proj (V c main_arg0) (V c main_arg4) :=
  (dat0 V c).arrAt_eq_of_cover 5 (proj (V c main_arg0) (V c main_arg4)) (fun t _ => flushedK V c t) (fun i => coverK i)

/-- The value weight window's block at any point is the whole weight matrix. -/
theorem weightsV_block (c : Dev nD) (t : Fin cfg0.N) (y : S128x128.Idx) :
    (iblk0 V c 3 t : Vec Ideal S128x128 .f32) y = (V c main_arg5 : SW.Idx → EReal) y := by
  obtain ⟨a0, a1, b0, b1, c0, c1, d0, d1, q0, q1, k0, k1, v0, v1⟩ := idx_maps t
  unfold iblk0
  show V c main_arg5 _ = V c main_arg5 _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- What point t writes back to V is block t of the product of the features with the value weights. -/
theorem flushedV (c : Dev nD) (t : Fin cfg0.N) :
    (dat0 V c).flushed 6 t = ((cfg0.win 6).blk t).view.read (Elt Ideal) (proj (V c main_arg0) (V c main_arg5)) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz]
  obtain ⟨a0, a1, b0, b1, c0, c1, d0, d1, q0, q1, k0, k1, v0, v1⟩ := idx_maps t
  funext y
  show k0_pay4 (iblk0 V c 0 t) (iblk0 V c 3 t) y = proj (V c main_arg0) (V c main_arg5) (((cfg0.win 6).blk t).view.emb y)
  exact block_rows (V c main_arg0) (V c main_arg5) (iblk0 V c 0 t) (iblk0 V c 3 t) t.val
    (fun y' i h0 h1 => features_block V c t y' i h0 h1) (fun y' => weightsV_block V c t y')
    y (((cfg0.win 6).blk t).view.emb y)
    (by show win0_6.index t (0 : Fin 2) * 4000 + 1 * (y 0).val = t.val * 4000 + (y 0).val; omega)
    (by show win0_6.index t (1 : Fin 2) * 128 + 1 * (y 1).val = (y 1).val; omega)

/-- The ten row blocks of V tile its 40000 rows: row r is in block r / 4000. -/
theorem coverV (i : SN2.Idx) :
    ∃ t : Fin cfg0.N, (cfg0.win 6).flush t = true ∧ i ∈ ((cfg0.win 6).blk t).view.set := by
  have hi0 : (i 0).val < 40000 := idx2_lt0 i
  have hi1 : (i 1).val < 128 := idx2_lt1 i
  have hN : cfg0.N = 10 := N_0
  obtain ⟨t, ht⟩ : ∃ t : Fin cfg0.N, t.val = (i 0).val / 4000 := ⟨⟨(i 0).val / 4000, by rw [hN]; omega⟩, rfl⟩
  obtain ⟨a0, a1, b0, b1, c0, c1, d0, d1, q0, q1, k0, k1, v0, v1⟩ := idx_maps t
  refine ⟨t, flush0_6 t, ?_⟩
  show i ∈ ((View.whole main_v0_2).slice (win0_6.rect t)).set
  rw [View.set_slice_whole, Rect.mem_set_unit]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- After the region, V is the product of the features with the value weights. -/
theorem finalV (c : Dev nD) : (dat0 V c).arrAt 6 cfg0.N = proj (V c main_arg0) (V c main_arg5) :=
  (dat0 V c).arrAt_eq_of_cover 6 (proj (V c main_arg0) (V c main_arg5)) (fun t _ => flushedV V c t) (fun i => coverV i)

end Region

end Cert.KernelIdeal.Projections

end
-- ==== Proof.KernelEdges.lean ====
/-
  The second region: the per-edge products.

  Grid point t of the second region loads rows 4000 t … 4000 t + 3999 of the three gathered arrays (K at the source
  rows, Q at the destination rows, V at the source rows) and stores, into the same rows of its two outputs,
  score = (K·Q)·(1/4) and weighted = V·score, element by element.  So block t of each output is block t of the
  whole-array elementwise formula, the 160 blocks tile the 640000 rows, and after the region the two output arrays
  are those formulas of the three input arrays.
-/
import proofs.«148838_j67121748902425_1_alg».proof.Proof.Gen.KernelIdeal.Frame
import proofs.«148838_j67121748902425_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edges

open Cert.KernelIdeal Cert.KernelIdeal.Gen Cert.KernelIdeal.Facts₀ Cert.EdgeAttn Cert.EdgeAttn.Layout

theorem hz : (![0, 0] : Fin 2 → Nat) = fun _ => 0 := funext fun a => by fin_cases a <;> rfl

/-- The score's payload at an element: the product of the two loaded elements, times 1/4. -/
theorem score_at (x0 x2 : Vec Ideal S4000x128 .f32) (y : S4000x128.Idx) :
    k1_pay1 x0 x2 y = (x0 y * x2 y) * Ideal.ofBits .f32 0x3E800000#32 := by
  unfold k1_pay1
  rw [shapeCast_self, shapeCast_self]
  rfl

/-- The weighted value's payload at an element: the third loaded element times the score. -/
theorem weighted_at (x0 x2 x8 : Vec Ideal S4000x128 .f32) (y : S4000x128.Idx) :
    k1_pay2 x0 x2 x8 y = x8 y * ((x0 y * x2 y) * Ideal.ofBits .f32 0x3E800000#32) := by
  unfold k1_pay2
  rw [shapeCast_self]
  show x8 y * k1_pay1 x0 x2 y = _
  rw [score_at]

/-- The score, elementwise, of two arrays of gathered rows. -/
def scoreFn (Kg Qg : SE2.Idx → EReal) : SE2.Idx → EReal :=
  fun i => (Kg i * Qg i) * Ideal.ofBits .f32 0x3E800000#32

/-- The weighted value, elementwise, of an array of gathered rows and the scores. -/
def weightedFn (Vg sc : SE2.Idx → EReal) : SE2.Idx → EReal := fun i => Vg i * sc i

section Region
variable (V : (c : Dev nD) → (b : Ref sig .tc) → Buf (Elt Ideal) ((c : Thread nD τ).loc b))

/-- The printed index maps over the grid: all five windows sit at block row t. -/
theorem idx_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Each input window's block at point t, at an element, is its array at the element moved down by 4000 t rows:
    the output blocks sit at the same rows, so an input element and the output element it feeds share one index. -/
theorem keys_block (c : Dev nD) (t : Fin cfg1.N) (y : S4000x128.Idx) :
    (iblk1 V c 0 t : Vec Ideal S4000x128 .f32) y = (V c main_v7 : SE2.Idx → EReal) (((cfg1.win 3).blk t).view.emb y) := by
  obtain ⟨a0, a1, b0, b1, c0, c1, s0, s1, w0, w1⟩ := idx_maps t
  unfold iblk1
  show V c main_v7 (((cfg1.win 0).blk t).view.emb y) = V c main_v7 (((cfg1.win 3).blk t).view.emb y)
  refine congrArg (V c main_v7) (funext fun a => Fin.ext ?_)
  match a with
  | ⟨0, _⟩ => show win1_0.index t (0 : Fin 2) * 4000 + 1 * (y 0).val = win1_3.index t (0 : Fin 2) * 4000 + 1 * (y 0).val; omega
  | ⟨1, _⟩ => show win1_0.index t (1 : Fin 2) * 128 + 1 * (y 1).val = win1_3.index t (1 : Fin 2) * 128 + 1 * (y 1).val; omega

theorem queries_block (c : Dev nD) (t : Fin cfg1.N) (y : S4000x128.Idx) :
    (iblk1 V c 1 t : Vec Ideal S4000x128 .f32) y = (V c main_v14 : SE2.Idx → EReal) (((cfg1.win 3).blk t).view.emb y) := by
  obtain ⟨a0, a1, b0, b1, c0, c1, s0, s1, w0, w1⟩ := idx_maps t
  unfold iblk1
  show V c main_v14 (((cfg1.win 1).blk t).view.emb y) = V c main_v14 (((cfg1.win 3).blk t).view.emb y)
  refine congrArg (V c main_v14) (funext fun a => Fin.ext ?_)
  match a with
  | ⟨0, _⟩ => show win1_1.index t (0 : Fin 2) * 4000 + 1 * (y 0).val = win1_3.index t (0 : Fin 2) * 4000 + 1 * (y 0).val; omega
  | ⟨1, _⟩ => show win1_1.index t (1 : Fin 2) * 128 + 1 * (y 1).val = win1_3.index t (1 : Fin 2) * 128 + 1 * (y 1).val; omega

theorem values_block (c : Dev nD) (t : Fin cfg1.N) (y : S4000x128.Idx) :
    (iblk1 V c 2 t : Vec Ideal S4000x128 .f32) y = (V c main_v21 : SE2.Idx → EReal) (((cfg1.win 3).blk t).view.emb y) := by
  obtain ⟨a0, a1, b0, b1, c0, c1, s0, s1, w0, w1⟩ := idx_maps t
  unfold iblk1
  show V c main_v21 (((cfg1.win 2).blk t).view.emb y) = V c main_v21 (((cfg1.win 3).blk t).view.emb y)
  refine congrArg (V c main_v21) (funext fun a => Fin.ext ?_)
  match a with
  | ⟨0, _⟩ => show win1_2.index t (0 : Fin 2) * 4000 + 1 * (y 0).val = win1_3.index t (0 : Fin 2) * 4000 + 1 * (y 0).val; omega
  | ⟨1, _⟩ => show win1_2.index t (1 : Fin 2) * 128 + 1 * (y 1).val = win1_3.index t (1 : Fin 2) * 128 + 1 * (y 1).val; omega

/-- The two outputs' blocks at a point are at the same rows. -/
theorem outputs_same_rows (t : Fin cfg1.N) (y : S4000x128.Idx) :
    ((cfg1.win 4).blk t).view.emb y = ((cfg1.win 3).blk t).view.emb y := by
  obtain ⟨a0, a1, b0, b1, c0, c1, s0, s1, w0, w1⟩ := idx_maps t
  funext a
  apply Fin.ext
  match a with
  | ⟨0, _⟩ => show win1_4.index t (0 : Fin 2) * 4000 + 1 * (y 0).val = win1_3.index t (0 : Fin 2) * 4000 + 1 * (y 0).val; omega
  | ⟨1, _⟩ => show win1_4.index t (1 : Fin 2) * 128 + 1 * (y 1).val = win1_3.index t (1 : Fin 2) * 128 + 1 * (y 1).val; omega

/-- The score of every edge, as one function of the three gathered arrays. -/
def scoreOf (c : Dev nD) : SE2.Idx → EReal := scoreFn (V c main_v7) (V c main_v14)

/-- The weighted value of every edge, as one function of the three gathered arrays. -/
def weightedOf (c : Dev nD) : SE2.Idx → EReal := weightedFn (V c main_v21) (scoreOf V c)

/-- What point t writes back to the score array is block t of the scores. -/
theorem flushed_score (c : Dev nD) (t : Fin cfg1.N) :
    (dat1 V c).flushed 3 t = ((cfg1.win 3).blk t).view.read (Elt Ideal) (scoreOf V c) := by
  show (cfg1.win 3).cut (grid1.coords t) ((dat1 V c).after 3 t) = _
  rw [after1_3]
  unfold out1_3
  rw [View.canon_unit_zero hz]
  simp only [View.ld_unit_zero (S := S4000x128) hz]
  funext y
  show k1_pay1 (iblk1 V c 0 t) (iblk1 V c 1 t) y = scoreOf V c (((cfg1.win 3).blk t).view.emb y)
  rw [score_at (iblk1 V c 0 t) (iblk1 V c 1 t) y, keys_block V c t y, queries_block V c t y]
  rfl

/-- What point t writes back to the weighted array is block t of the weighted values. -/
theorem flushed_weighted (c : Dev nD) (t : Fin cfg1.N) :
    (dat1 V c).flushed 4 t = ((cfg1.win 4).blk t).view.read (Elt Ideal) (weightedOf V c) := by
  show (cfg1.win 4).cut (grid1.coords t) ((dat1 V c).after 4 t) = _
  rw [after1_4]
  unfold out1_4
  rw [View.canon_unit_zero hz]
  simp only [View.ld_unit_zero (S := S4000x128) hz]
  funext y
  show k1_pay2 (iblk1 V c 0 t) (iblk1 V c 1 t) (iblk1 V c 2 t) y = weightedOf V c (((cfg1.win 4).blk t).view.emb y)
  rw [weighted_at (iblk1 V c 0 t) (iblk1 V c 1 t) (iblk1 V c 2 t) y, keys_block V c t y, queries_block V c t y,
    values_block V c t y, outputs_same_rows t y]
  rfl

/-- The 160 row blocks of the score array tile its 640000 rows: row r is in block r / 4000. -/
theorem cover_score (i : SE2.Idx) :
    ∃ t : Fin cfg1.N, (cfg1.win 3).flush t = true ∧ i ∈ ((cfg1.win 3).blk t).view.set := by
  have hi0 : (i 0).val < 640000 := idx2_lt0 i
  have hi1 : (i 1).val < 128 := idx2_lt1 i
  have hN : cfg1.N = 160 := N_1
  obtain ⟨t, ht⟩ : ∃ t : Fin cfg1.N, t.val = (i 0).val / 4000 := ⟨⟨(i 0).val / 4000, by rw [hN]; omega⟩, rfl⟩
  obtain ⟨a0, a1, b0, b1, c0, c1, s0, s1, w0, w1⟩ := idx_maps t
  refine ⟨t, flush1_3 t, ?_⟩
  show i ∈ ((View.whole main_v22_0).slice (win1_3.rect t)).set
  rw [View.set_slice_whole, Rect.mem_set_unit]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 128 ≤ (i 1).val ∧ (i 1).val < win1_3.index t (1 : Fin 2) * 128 + 128
    omega

/-- The same for the weighted array. -/
theorem cover_weighted (i : SE2.Idx) :
    ∃ t : Fin cfg1.N, (cfg1.win 4).flush t = true ∧ i ∈ ((cfg1.win 4).blk t).view.set := by
  have hi0 : (i 0).val < 640000 := idx2_lt0 i
  have hi1 : (i 1).val < 128 := idx2_lt1 i
  have hN : cfg1.N = 160 := N_1
  obtain ⟨t, ht⟩ : ∃ t : Fin cfg1.N, t.val = (i 0).val / 4000 := ⟨⟨(i 0).val / 4000, by rw [hN]; omega⟩, rfl⟩
  obtain ⟨a0, a1, b0, b1, c0, c1, s0, s1, w0, w1⟩ := idx_maps t
  refine ⟨t, flush1_4 t, ?_⟩
  show i ∈ ((View.whole main_v22_1).slice (win1_4.rect t)).set
  rw [View.set_slice_whole, Rect.mem_set_unit]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- After the region the score array holds the scores, -/
theorem final_score (c : Dev nD) : (dat1 V c).arrAt 3 cfg1.N = scoreOf V c :=
  (dat1 V c).arrAt_eq_of_cover 3 (scoreOf V c) (fun t _ => flushed_score V c t) (fun i => cover_score i)

/-- and the weighted array the weighted values. -/
theorem final_weighted (c : Dev nD) : (dat1 V c).arrAt 4 cfg1.N = weightedOf V c :=
  (dat1 V c).arrAt_eq_of_cover 4 (weightedOf V c) (fun t _ => flushed_weighted V c t) (fun i => cover_weighted i)

end Region

end Cert.KernelIdeal.Edges

end
-- ==== Proof.KernelWhole.lean ====
/-
  The whole idealized kernel program: its result is the flat formula, split into heads.

  The program is four segments: the projection region, a stretch of host operations (three row gathers of its
  outputs), the per-edge region, and a stretch of host operations (two accumulating row scatters, the quotient and
  the final split into heads).  The buffer contents after each segment are named by the frame certificate; this
  module reads the result buffer's last contents backwards through the four segments:

    the tail's operations applied to the per-edge region's two outputs and the destination rows;
    those outputs as the per-edge formulas of the three gathered arrays;
    the gathered arrays as row gathers of the projection region's outputs;
    those outputs as the products of the features with the three weight matrices.

  The run itself is the frame certificate's launch of the four segments, with the result buffer added to what is
  read off the last thread state.
-/
import proofs.«148838_j67121748902425_1_alg».proof.Proof.Gen.KernelIdeal.Frame
import proofs.«148838_j67121748902425_1_alg».proof.Proof.KernelProjections
import proofs.«148838_j67121748902425_1_alg».proof.Proof.KernelEdges
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.EdgeAttn Cert.EdgeAttn.Layout

local notation "𝕄" => MT nD τ sig Unit (Elt Ideal) ℕ (UR sig nD τ) ℕ

variable (m : (ℓ : Loc nD τ sig) → Buf (Elt Ideal) ℓ) (ρ : Dev nD → PrngReg)

/-! ## After the first region -/

theorem after_first_Q (c : Dev nD) :
    W1 m ρ c (Proc.devRef .tc main_v0_0) = proj (V0 m ρ c main_arg0) (V0 m ρ c main_arg3) :=
  (W1_arr m ρ c 4).trans (Projections.finalQ (V0 m ρ) c)
theorem after_first_K (c : Dev nD) :
    W1 m ρ c (Proc.devRef .tc main_v0_1) = proj (V0 m ρ c main_arg0) (V0 m ρ c main_arg4) :=
  (W1_arr m ρ c 5).trans (Projections.finalK (V0 m ρ) c)
theorem after_first_V (c : Dev nD) :
    W1 m ρ c (Proc.devRef .tc main_v0_2) = proj (V0 m ρ c main_arg0) (V0 m ρ c main_arg5) :=
  (W1_arr m ρ c 6).trans (Projections.finalV (V0 m ρ) c)
theorem after_first_src (c : Dev nD) : W1 m ρ c (Proc.devRef .tc main_arg1) = V0 m ρ c main_arg1 :=
  W1_of_ne m ρ c main_arg1 (by decide)
theorem after_first_dst (c : Dev nD) : W1 m ρ c (Proc.devRef .tc main_arg2) = V0 m ρ c main_arg2 :=
  W1_of_ne m ρ c main_arg2 (by decide)

/-! ## After the gathers -/

theorem gathered_K (c : Dev nD) :
    W2 m ρ c (Proc.devRef .tc main_v7)
      = Host.gather gd2 (proj (V0 m ρ c main_arg0) (V0 m ρ c main_arg4)) (wrapRows (V0 m ρ c main_arg1)) := by
  show StableHlo.after hostOps1 (W1 m ρ c) (Proc.devRef .tc main_v7) = _
  after_results
  rw [after_first_K m ρ c, after_first_src m ρ c]
  rfl

theorem gathered_Q (c : Dev nD) :
    W2 m ρ c (Proc.devRef .tc main_v14)
      = Host.gather gd2 (proj (V0 m ρ c main_arg0) (V0 m ρ c main_arg3)) (wrapRows (V0 m ρ c main_arg2)) := by
  show StableHlo.after hostOps1 (W1 m ρ c) (Proc.devRef .tc main_v14) = _
  after_results
  rw [after_first_Q m ρ c, after_first_dst m ρ c]
  rfl

set_option maxHeartbeats 2000000 in
theorem gathered_V (c : Dev nD) :
    W2 m ρ c (Proc.devRef .tc main_v21)
      = Host.gather gd2 (proj (V0 m ρ c main_arg0) (V0 m ρ c main_arg5)) (wrapRows (V0 m ρ c main_arg1)) := by
  show StableHlo.after hostOps1 (W1 m ρ c) (Proc.devRef .tc main_v21) = _
  after_results
  rw [after_first_V m ρ c, after_first_src m ρ c]
  rfl

theorem gathered_dst (c : Dev nD) : W2 m ρ c (Proc.devRef .tc main_arg2) = V0 m ρ c main_arg2 := by
  show StableHlo.after hostOps1 (W1 m ρ c) (Proc.devRef .tc main_arg2) = _
  after_results
  exact after_first_dst m ρ c

/-! ## After the second region -/

/-- The per-edge scores are the formula's. -/
theorem scores (c : Dev nD) :
    Edges.scoreOf (V2 m ρ) c
      = score (proj (V0 m ρ c main_arg0) (V0 m ρ c main_arg4)) (proj (V0 m ρ c main_arg0) (V0 m ρ c main_arg3))
          (V0 m ρ c main_arg1) (V0 m ρ c main_arg2) := by
  unfold Edges.scoreOf
  show Edges.scoreFn (W2 m ρ c (Proc.devRef .tc main_v7)) (W2 m ρ c (Proc.devRef .tc main_v14)) = _
  rw [gathered_K m ρ c, gathered_Q m ρ c]
  rfl

/-- The per-edge weighted values are the formula's. -/
theorem weighteds (c : Dev nD) :
    Edges.weightedOf (V2 m ρ) c
      = weighted (proj (V0 m ρ c main_arg0) (V0 m ρ c main_arg5)) (V0 m ρ c main_arg1)
          (score (proj (V0 m ρ c main_arg0) (V0 m ρ c main_arg4)) (proj (V0 m ρ c main_arg0) (V0 m ρ c main_arg3))
            (V0 m ρ c main_arg1) (V0 m ρ c main_arg2)) := by
  unfold Edges.weightedOf
  show Edges.weightedFn (W2 m ρ c (Proc.devRef .tc main_v21)) (Edges.scoreOf (V2 m ρ) c) = _
  rw [gathered_V m ρ c, scores m ρ c]
  rfl

theorem after_second_score (c : Dev nD) :
    W3 m ρ c (Proc.devRef .tc main_v22_0)
      = score (proj (V0 m ρ c main_arg0) (V0 m ρ c main_arg4)) (proj (V0 m ρ c main_arg0) (V0 m ρ c main_arg3))
          (V0 m ρ c main_arg1) (V0 m ρ c main_arg2) :=
  ((W3_arr m ρ c 3).trans (Edges.final_score (V2 m ρ) c)).trans (scores m ρ c)

theorem after_second_weighted (c : Dev nD) :
    W3 m ρ c (Proc.devRef .tc main_v22_1)
      = weighted (proj (V0 m ρ c main_arg0) (V0 m ρ c main_arg5)) (V0 m ρ c main_arg1)
          (score (proj (V0 m ρ c main_arg0) (V0 m ρ c main_arg4)) (proj (V0 m ρ c main_arg0) (V0 m ρ c main_arg3))
            (V0 m ρ c main_arg1) (V0 m ρ c main_arg2)) :=
  ((W3_arr m ρ c 4).trans (Edges.final_weighted (V2 m ρ) c)).trans (weighteds m ρ c)

theorem after_second_dst (c : Dev nD) : W3 m ρ c (Proc.devRef .tc main_arg2) = V0 m ρ c main_arg2 :=
  (W3_of_ne m ρ c main_arg2 (by decide)).trans (gathered_dst m ρ c)

/-! ## After the tail -/

/-- The result buffer's last contents: the flat formula of the launch contents of the arguments, split into heads. -/
theorem result_value (c : Dev nD) :
    W4 m ρ c (Proc.devRef .tc main_v32)
      = shapeCast SN3 (attention (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) cast_N := by
  show StableHlo.after hostOps2 (W3 m ρ c) (Proc.devRef .tc main_v32) = _
  after_results
  rw [after_second_score m ρ c, after_second_weighted m ρ c, after_second_dst m ρ c]
  rfl

/-! ## The run -/

set_option backward.isDefEq.respectTransparency.types false in
/-- Every weakly fair execution of the program terminates without a fault, with the result buffer at the last
    boundary's contents and the arguments as launched. -/
theorem run : θ_run defs (onTc (τ := τ) (main (F := Ideal))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.Reference.lean ====
/-
  The reference computes the same formula, in the split layout [40000, 8, 16].

  It splits Q, K and V into heads first and then gathers, multiplies, scatters and divides in the split layout.
  Every one of those steps commutes with the change of layout (the gather and the accumulating scatter move whole
  rows; the rest is elementwise), so the reference's result is the flat formula, split into heads at the end.
  Its scale is 1 / sqrt 16, computed; on the extended reals that is 1/4 exactly, the constant of the flat formula.
-/
import proofs.«148838_j67121748902425_1_alg».proof.Proof.Gen.ReferenceIdeal.Run
import proofs.«148838_j67121748902425_1_alg».proof.Proof.Gen.ReferenceIdeal.Read
import proofs.«148838_j67121748902425_1_alg».proof.Proof.LibMatmulRows
import proofs.«148838_j67121748902425_1_alg».proof.Proof.Spec

set_option maxRecDepth 16384

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.EdgeAttn Cert.EdgeAttn.Layout

/-- The host's product of the node features with a weight matrix is the formula's. -/
theorem hostdot_proj (A : FVec Ideal S40000x128 .f32) (W : FVec Ideal S128x128 .f32) :
    Host.dotGeneral (F := Ideal) dot_S40000x128_S128x128_S40000x128_1_0_0_1_n_n none A W = proj A W := by
  funext i
  obtain ⟨p, q, rfl⟩ : ∃ (p : Fin 40000) (q : Fin 128), i = ix2 p q := ⟨i 0, i 1, eq_ix2 i⟩
  exact LibMatmulRows.hostdot_rows dot_S40000x128_S128x128_S40000x128_1_0_0_1_n_n rfl rfl
    Read.lhs_main_v0_0 Read.lhs_main_v0_1 Read.rhs_main_v0_0 Read.rhs_main_v0_1 A W p q

/-- Elementwise operations do not look at the layout. -/
theorem mulf_split {s t : Shape} (x y : s.Idx → EReal) (h : s.ShapeCasts t) :
    mulf (F := Ideal) (φ := .f32) (shapeCast t x h) (shapeCast t y h) = shapeCast t (mulf (F := Ideal) (φ := .f32) x y) h := rfl
theorem addf_split {s t : Shape} (x y : s.Idx → EReal) (h : s.ShapeCasts t) :
    addf (F := Ideal) (φ := .f32) (shapeCast t x h) (shapeCast t y h) = shapeCast t (addf (F := Ideal) (φ := .f32) x y) h := rfl
theorem divf_split {s t : Shape} (x y : s.Idx → EReal) (h : s.ShapeCasts t) :
    Host.divf (F := Ideal) (φ := .f32) (shapeCast t x h) (shapeCast t y h) = shapeCast t (Host.divf (F := Ideal) (φ := .f32) x y) h := rfl

/-- The quotient wV / (z + ε), elementwise, does not look at the layout either. -/
theorem quotient_split (a b e : SN2.Idx → EReal) :
    Host.divf (F := Ideal) (φ := .f32) (shapeCast SN3 a cast_N)
        (addf (F := Ideal) (φ := .f32) (shapeCast SN3 b cast_N) (shapeCast SN3 e cast_N))
      = shapeCast SN3 (Host.divf (F := Ideal) (φ := .f32) a (addf (F := Ideal) (φ := .f32) b e)) cast_N := rfl

/-- Multiplying every element by the computed scale 1 / sqrt 16 is multiplying it by 1/4. -/
theorem scale_eq (X : SE2.Idx → EReal) :
    mulf (F := Ideal) (φ := .f32) X (broadcastInDim SE2 ![] bc_scalar_E2
        (Host.divf (constant (F := Ideal) S0 .f32 0x3F800000#32) (Host.sqrt (constant (F := Ideal) S0 .f32 0x41800000#32))))
      = fun i => X i * Ideal.ofBits .f32 0x3E800000#32 := by
  funext i
  rw [mulf_apply]
  unfold broadcastInDim Host.divf Host.sqrt constant
  simp only [Ideal.hostDivf_def, Ideal.hostUnary_sqrt_def, Ideal.ofBits_def]
  rw [Words.one_over_sqrt_sixteen]

/-- The reference's result is the flat formula split into heads. -/
theorem reference_value (m : (ℓ : Loc nD τ sig) → Buf (Elt Ideal) ℓ) (c : Dev nD) :
    Value.res_main_v41 (F := Ideal) m c
      = shapeCast SN3 (attention (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) cast_N := by
  unfold Value.res_main_v41
  rw [hostdot_proj, hostdot_proj, hostdot_proj]
  rw [gather_split _ _ _ cast_E, gather_split _ _ _ cast_E, gather_split _ _ _ cast_E]
  rw [bcast_split (A := 640000) _ _ bc_scalar_E2 cast_E]
  rw [bcast_split (A := 40000) _ _ bc_scalar_N2 cast_N, bcast_split (A := 40000) _ _ bc_scalar_N2 cast_N]
  rw [mulf_split, mulf_split, mulf_split]
  rw [scatterAdd_split, scatterAdd_split]
  refine (quotient_split _ _ _).trans (congrArg (fun x => shapeCast SN3 x cast_N) ?_)
  rw [scale_eq]
  rfl

end Cert.ReferenceIdeal.Hand

end
-- ==== Proof.lean ====
/-
  Edge-wise attention on a graph: the kernel program and its reference compute one function on the extended reals.

  From node features h [40000, 128], weight matrices WQ, WK, WV [128, 128] and the end rows src, dst of 640000
  edges, both programs form Q = h·WQ, K = h·WK, V = h·WV, the per-edge score K[src]·Q[dst]·c and weighted value
  V[src]·score, sum both into the destination rows (z and wV) and return wV / (z + ε) as [40000, 8, 16].

  The kernel program works in the flat layout [·, 128]: one region computes the three products block by block
  (ten blocks of 4000 rows), host operations gather the rows, a second region forms the two per-edge products
  block by block (160 blocks), host operations scatter-add, divide, and split the 128 features into 8 heads of
  16 at the very end; its scale c is the constant 1/4.  The reference splits into heads first and does
  everything in the layout [·, 8, 16]; its scale is 1 / sqrt 16, computed.

  The two agree because (i) every block the regions write is the corresponding block of a whole-array formula and
  the blocks tile the arrays; (ii) gathering rows, scatter-adding rows and the elementwise operations all commute
  with splitting the features into heads — element (r, a, b) is element (r, 16 a + b) — and (iii) sqrt 16 = 4
  exactly, so 1 / sqrt 16 = 1/4.  Only re-indexing of finite sums and this one identity of constants are used:
  no distributivity or cancellation, hence nothing that would need the inputs to be finite.

  The word-level kernel is idealized with no rewrite at all, so that conjunct is empty.
-/
import proofs.«148838_j67121748902425_1_alg».proof.Defs
import proofs.«148838_j67121748902425_1_alg».proof.Proof.Gen.Kernel
import proofs.«148838_j67121748902425_1_alg».proof.Proof.Gen.Kernel.Skeleton
import proofs.«148838_j67121748902425_1_alg».proof.Proof.Gen.Kernel.Launch
import proofs.«148838_j67121748902425_1_alg».proof.Proof.Gen.Kernel.Points
import proofs.«148838_j67121748902425_1_alg».proof.Proof.Gen.Kernel.Frame
import proofs.«148838_j67121748902425_1_alg».proof.Proof.Gen.KernelIdeal
import proofs.«148838_j67121748902425_1_alg».proof.Proof.Gen.KernelIdeal.Skeleton
import proofs.«148838_j67121748902425_1_alg».proof.Proof.Gen.KernelIdeal.Launch
import proofs.«148838_j67121748902425_1_alg».proof.Proof.Gen.KernelIdeal.Points
import proofs.«148838_j67121748902425_1_alg».proof.Proof.Gen.KernelIdeal.Frame
import proofs.«148838_j67121748902425_1_alg».proof.Proof.Gen.ReferenceIdeal
import proofs.«148838_j67121748902425_1_alg».proof.Proof.Gen.Pre_finite_inputs
import proofs.«148838_j67121748902425_1_alg».proof.Proof.Gen.ReferenceIdeal.Run
import proofs.«148838_j67121748902425_1_alg».proof.Proof.Gen.ReferenceIdeal.Read
import proofs.«148838_j67121748902425_1_alg».proof.Proof.KernelWhole
import proofs.«148838_j67121748902425_1_alg».proof.Proof.Reference
import Idealize.ShloMosaic.Adequacy
import Idealize.ShloMosaic.Init

noncomputable section

namespace Cert.Proof

open Idealize.ShloMosaic Idealize.ShloMosaic.TcCoe Idealize.SL.Sem Cert.EdgeAttn Cert.EdgeAttn.Layout

/-- The word-level kernel program runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the flat formula of their (equal) arguments, split into heads. -/
theorem algebraic : Cert.algebraic_KernelIdeal_ReferenceIdeal := by
  intro m ρ m' ρ' _ hagree
  refine ⟨fun c => shapeCast SN3 (attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))) cast_N, ?_, ?_⟩
  · exact (θ_run Cert.KernelIdeal.defs _ _).mono
      (fun r h c => ⟨(h c).1.trans (Cert.KernelIdeal.Whole.result_value m ρ c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.reference_value m' c]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
